-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x512x64 : Shape := ⟨4, ![2, 8, 512, 64]⟩
abbrev S16x512x64 : Shape := ⟨3, ![16, 512, 64]⟩
abbrev S2x8x64x512 : Shape := ⟨4, ![2, 8, 64, 512]⟩
abbrev S16x64x512 : Shape := ⟨3, ![16, 64, 512]⟩
abbrev S16x512x512 : Shape := ⟨3, ![16, 512, 512]⟩
abbrev S1x256x64 : Shape := ⟨3, ![1, 256, 64]⟩
abbrev S1x64x256 : Shape := ⟨3, ![1, 64, 256]⟩
abbrev S1x256x256 : Shape := ⟨3, ![1, 256, 256]⟩
abbrev S64x256 : Shape := ⟨2, ![64, 256]⟩
abbrev S1x64x64 : Shape := ⟨3, ![1, 64, 64]⟩
abbrev S64x64 : Shape := ⟨2, ![64, 64]⟩
abbrev S64x64x1 : Shape := ⟨3, ![64, 64, 1]⟩
abbrev S64x64x256 : Shape := ⟨3, ![64, 64, 256]⟩
abbrev S2x8x512x512 : Shape := ⟨4, ![2, 8, 512, 512]⟩
abbrev S2x512x512x8 : Shape := ⟨4, ![2, 512, 512, 8]⟩

abbrev nBuf : Space → Nat
  | .hbm => 9
  | .vmem => 6
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x8x512x64, .f32⟩
  | .hbm, ⟨3, _⟩ => ⟨S16x512x64, .f32⟩
  | .hbm, ⟨4, _⟩ => ⟨S2x8x64x512, .f32⟩
  | .hbm, ⟨5, _⟩ => ⟨S16x64x512, .f32⟩
  | .hbm, ⟨6, _⟩ => ⟨S16x512x512, .f32⟩
  | .hbm, ⟨7, _⟩ => ⟨S2x8x512x512, .f32⟩
  | .hbm, ⟨8, _⟩ => ⟨S2x512x512x8, .f32⟩
  | .local _ .vmem, ⟨0, _⟩ => ⟨S1x256x64, .f32⟩
  | .local _ .vmem, ⟨1, _⟩ => ⟨S1x256x64, .f32⟩
  | .local _ .vmem, ⟨2, _⟩ => ⟨S1x64x256, .f32⟩
  | .local _ .vmem, ⟨3, _⟩ => ⟨S1x64x256, .f32⟩
  | .local _ .vmem, ⟨4, _⟩ => ⟨S1x256x256, .f32⟩
  | .local _ .vmem, ⟨5, _⟩ => ⟨S1x256x256, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S2x512x8x64_S2x8x512x64_0_2_1_3 : S2x512x8x64.Transposes [0, 2, 1, 3] S2x8x512x64
  shapeCasts_S2x8x512x64_S16x512x64 : S2x8x512x64.ShapeCasts S16x512x64
  transposes_S2x512x8x64_S2x8x64x512_0_2_3_1 : S2x512x8x64.Transposes [0, 2, 3, 1] S2x8x64x512
  shapeCasts_S2x8x64x512_S16x64x512 : S2x8x64x512.ShapeCasts S16x64x512
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x256x64_S1x64x64_0_0_0 : ∀ a, (![0, 0, 0] : Fin 3 → Nat) a + S1x64x64.size a ≤ S1x256x64.size a
  h_S1x64x64 : 0 < S1x64x64.numel
  shapeCasts_S1x64x64_S64x64 : S1x64x64.ShapeCasts S64x64
  shapeCasts_S64x64_S64x64x1 : S64x64.ShapeCasts S64x64x1
  shapeCasts_S64x256_S1x64x256 : S64x256.ShapeCasts S1x64x256
  broadcasts_S64x64x1_S64x64x256 : S64x64x1.Broadcasts S64x64x256
  broadcasts_S1x64x256_S64x64x256 : S1x64x256.Broadcasts S64x64x256
  reduces_S64x64x256_S64x256 : S64x64x256.Reduces [1] S64x256
  inb_S1x256x256_S1x64x256_0_0_0 : ∀ a, (![0, 0, 0] : Fin 3 → Nat) a + S1x64x256.size a ≤ S1x256x256.size a
  inb_S1x256x64_S1x64x64_0_64_0 : ∀ a, (![0, 64, 0] : Fin 3 → Nat) a + S1x64x64.size a ≤ S1x256x64.size a
  inb_S1x256x256_S1x64x256_0_64_0 : ∀ a, (![0, 64, 0] : Fin 3 → Nat) a + S1x64x256.size a ≤ S1x256x256.size a
  inb_S1x256x64_S1x64x64_0_128_0 : ∀ a, (![0, 128, 0] : Fin 3 → Nat) a + S1x64x64.size a ≤ S1x256x64.size a
  inb_S1x256x256_S1x64x256_0_128_0 : ∀ a, (![0, 128, 0] : Fin 3 → Nat) a + S1x64x256.size a ≤ S1x256x256.size a
  inb_S1x256x64_S1x64x64_0_192_0 : ∀ a, (![0, 192, 0] : Fin 3 → Nat) a + S1x64x64.size a ≤ S1x256x64.size a
  inb_S1x256x256_S1x64x256_0_192_0 : ∀ a, (![0, 192, 0] : Fin 3 → Nat) a + S1x64x256.size a ≤ S1x256x256.size a
  shapeCasts_S16x512x512_S2x8x512x512 : S16x512x512.ShapeCasts S2x8x512x512
  transposes_S2x8x512x512_S2x512x512x8_0_2_3_1 : S2x8x512x512.Transposes [0, 2, 3, 1] S2x512x512x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x512x64.size a
  hwx0_0 : ∀ i : grid0.Coords, EltTy.bits .f32 = 32 ∨ (Rect.block (s := S16x512x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S16x64x512.size a
  hwx0_1 : ∀ i : grid0.Coords, EltTy.bits .f32 = 32 ∨ (Rect.block (s := S16x64x512) S1x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S16x512x512.size a
  hwx0_2 : ∀ i : grid0.Coords, EltTy.bits .f32 = 32 ∨ (Rect.block (s := S16x512x512) S1x256x256.size (cc0_transform_2 i) (hinb0_2 i)).WholeWords (EltTy.packing .f32)

variable [Facts₀]

abbrev win0_0 : Pipeline.Window sig grid0 :=
  Pipeline.Window.ofSpec (Memref.whole main_v1) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x512x8x64 : Shape := ⟨4, ![2, 512, 8, 64]⟩
abbrev S_ : Shape := ⟨0, ![]⟩
abbrev S2x512x1x64 : Shape := ⟨4, ![2, 512, 1, 64]⟩
abbrev S2x512x64 : Shape := ⟨3, ![2, 512, 64]⟩
abbrev S2x1x512x64 : Shape := ⟨4, ![2, 1, 512, 64]⟩
abbrev S2x512x512x64 : Shape := ⟨4, ![2, 512, 512, 64]⟩
abbrev S2x512x512 : Shape := ⟨3, ![2, 512, 512]⟩
abbrev S2x512x512x1 : Shape := ⟨4, ![2, 512, 512, 1]⟩
abbrev S2x512x512x8 : Shape := ⟨4, ![2, 512, 512, 8]⟩

abbrev nBuf : Space → Nat
  | .hbm => 135
  | .vmem => 0
  | .smem => 0
  | _ => 0

abbrev hbmTy0_0 (i : Nat) : BufTy := match i % 128 with
  | 0 => ⟨S2x512x8x64, .f32⟩
  | 1 => ⟨S2x512x8x64, .f32⟩
  | 2 => ⟨S_, .f32⟩
  | 3 => ⟨S_, .f32⟩
  | 4 => ⟨S_, .f32⟩
  | 5 => ⟨S_, .f32⟩
  | 6 => ⟨S2x512x1x64, .f32⟩
  | 7 => ⟨S2x512x64, .f32⟩
  | 8 => ⟨S2x512x1x64, .f32⟩
  | 9 => ⟨S2x512x64, .f32⟩
  | 10 => ⟨S2x512x1x64, .f32⟩
  | 11 => ⟨S2x1x512x64, .f32⟩
  | 12 => ⟨S2x512x512x64, .f32⟩
  | 13 => ⟨S2x512x512x64, .f32⟩
  | 14 => ⟨S2x512x512x64, .f32⟩
  | 15 => ⟨S2x512x512x64, .f32⟩
  | 16 => ⟨S_, .f32⟩
  | 17 => ⟨S2x512x512, .f32⟩
  | 18 => ⟨S2x512x512, .f32⟩
  | 19 => ⟨S2x512x512, .f32⟩
  | 20 => ⟨S2x512x512, .f32⟩
  | 21 => ⟨S2x512x1x64, .f32⟩
  | 22 => ⟨S2x512x64, .f32⟩
  | 23 => ⟨S2x512x1x64, .f32⟩
  | 24 => ⟨S2x512x64, .f32⟩
  | 25 => ⟨S2x512x1x64, .f32⟩
  | 26 => ⟨S2x1x512x64, .f32⟩
  | 27 => ⟨S2x512x512x64, .f32⟩
  | 28 => ⟨S2x512x512x64, .f32⟩
  | 29 => ⟨S2x512x512x64, .f32⟩
  | 30 => ⟨S2x512x512x64, .f32⟩
  | 31 => ⟨S_, .f32⟩
  | 32 => ⟨S2x512x512, .f32⟩
  | 33 => ⟨S2x512x512, .f32⟩
  | 34 => ⟨S2x512x512, .f32⟩
  | 35 => ⟨S2x512x512, .f32⟩
  | 36 => ⟨S2x512x1x64, .f32⟩
  | 37 => ⟨S2x512x64, .f32⟩
  | 38 => ⟨S2x512x1x64, .f32⟩
  | 39 => ⟨S2x512x64, .f32⟩
  | 40 => ⟨S2x512x1x64, .f32⟩
  | 41 => ⟨S2x1x512x64, .f32⟩
  | 42 => ⟨S2x512x512x64, .f32⟩
  | 43 => ⟨S2x512x512x64, .f32⟩
  | 44 => ⟨S2x512x512x64, .f32⟩
  | 45 => ⟨S2x512x512x64, .f32⟩
  | 46 => ⟨S_, .f32⟩
  | 47 => ⟨S2x512x512, .f32⟩
  | 48 => ⟨S2x512x512, .f32⟩
  | 49 => ⟨S2x512x512, .f32⟩
  | 50 => ⟨S2x512x512, .f32⟩
  | 51 => ⟨S2x512x1x64, .f32⟩
  | 52 => ⟨S2x512x64, .f32⟩
  | 53 => ⟨S2x512x1x64, .f32⟩
  | 54 => ⟨S2x512x64, .f32⟩
  | 55 => ⟨S2x512x1x64, .f32⟩
  | 56 => ⟨S2x1x512x64, .f32⟩
  | 57 => ⟨S2x512x512x64, .f32⟩
  | 58 => ⟨S2x512x512x64, .f32⟩
  | 59 => ⟨S2x512x512x64, .f32⟩
  | 60 => ⟨S2x512x512x64, .f32⟩
  | 61 => ⟨S_, .f32⟩
  | 62 => ⟨S2x512x512, .f32⟩
  | 63 => ⟨S2x512x512, .f32⟩
  | 64 => ⟨S2x512x512, .f32⟩
  | 65 => ⟨S2x512x512, .f32⟩
  | 66 => ⟨S2x512x1x64, .f32⟩
  | 67 => ⟨S2x512x64, .f32⟩
  | 68 => ⟨S2x512x1x64, .f32⟩
  | 69 => ⟨S2x512x64, .f32⟩
  | 70 => ⟨S2x512x1x64, .f32⟩
  | 71 => ⟨S2x1x512x64, .f32⟩
  | 72 => ⟨S2x512x512x64, .f32⟩
  | 73 => ⟨S2x512x512x64, .f32⟩
  | 74 => ⟨S2x512x512x64, .f32⟩
  | 75 => ⟨S2x512x512x64, .f32⟩
  | 76 => ⟨S_, .f32⟩
  | 77 => ⟨S2x512x512, .f32⟩
  | 78 => ⟨S2x512x512, .f32⟩
  | 79 => ⟨S2x512x512, .f32⟩
  | 80 => ⟨S2x512x512, .f32⟩
  | 81 => ⟨S2x512x1x64, .f32⟩
  | 82 => ⟨S2x512x64, .f32⟩
  | 83 => ⟨S2x512x1x64, .f32⟩
  | 84 => ⟨S2x512x64, .f32⟩
  | 85 => ⟨S2x512x1x64, .f32⟩
  | 86 => ⟨S2x1x512x64, .f32⟩
  | 87 => ⟨S2x512x512x64, .f32⟩
  | 88 => ⟨S2x512x512x64, .f32⟩
  | 89 => ⟨S2x512x512x64, .f32⟩
  | 90 => ⟨S2x512x512x64, .f32⟩
  | 91 => ⟨S_, .f32⟩
  | 92 => ⟨S2x512x512, .f32⟩
  | 93 => ⟨S2x512x512, .f32⟩
  | 94 => ⟨S2x512x512, .f32⟩
  | 95 => ⟨S2x512x512, .f32⟩
  | 96 => ⟨S2x512x1x64, .f32⟩
  | 97 => ⟨S2x512x64, .f32⟩
  | 98 => ⟨S2x512x1x64, .f32⟩
  | 99 => ⟨S2x512x64, .f32⟩
  | 100 => ⟨S2x512x1x64, .f32⟩
  | 101 => ⟨S2x1x512x64, .f32⟩
  | 102 => ⟨S2x512x512x64, .f32⟩
  | 103 => ⟨S2x512x512x64, .f32⟩
  | 104 => ⟨S2x512x512x64, .f32⟩
  | 105 => ⟨S2x512x512x64, .f32⟩
  | 106 => ⟨S_, .f32⟩
  | 107 => ⟨S2x512x512, .f32⟩
  | 108 => ⟨S2x512x512, .f32⟩
  | 109 => ⟨S2x512x512, .f32⟩
  | 110 => ⟨S2x512x512, .f32⟩
  | 111 => ⟨S2x512x1x64, .f32⟩
  | 112 => ⟨S2x512x64, .f32⟩
  | 113 => ⟨S2x512x1x64, .f32⟩
  | 114 => ⟨S2x512x64, .f32⟩
  | 115 => ⟨S2x512x1x64, .f32⟩
  | 116 => ⟨S2x1x512x64, .f32⟩
  | 117 => ⟨S2x512x512x64, .f32⟩
  | 118 => ⟨S2x512x512x64, .f32⟩
  | 119 => ⟨S2x512x512x64, .f32⟩
  | 120 => ⟨S2x512x512x64, .f32⟩
  | 121 => ⟨S_, .f32⟩
  | 122 => ⟨S2x512x512, .f32⟩
  | 123 => ⟨S2x512x512, .f32⟩
  | 124 => ⟨S2x512x512, .f32⟩
  | 125 => ⟨S2x512x512, .f32⟩
  | 126 => ⟨S2x512x512x1, .f32⟩
  | 127 => ⟨S2x512x512x1, .f32⟩
  | _ => ⟨S2x512x8x64, .f32⟩

abbrev hbmTy0_1 (i : Nat) : BufTy := match i % 128 with
  | 0 => ⟨S2x512x512x1, .f32⟩
  | 1 => ⟨S2x512x512x1, .f32⟩
  | 2 => ⟨S2x512x512x1, .f32⟩
  | 3 => ⟨S2x512x512x1, .f32⟩
  | 4 => ⟨S2x512x512x1, .f32⟩
  | 5 => ⟨S2x512x512x1, .f32⟩
  | 6 => ⟨S2x512x512x8, .f32⟩
  | _ => ⟨S2x512x8x64, .f32⟩

abbrev hbmTy (i : Nat) : BufTy := match i / 128 with
  | 0 => hbmTy0_0 i
  | 1 => hbmTy0_1 i
  | _ => ⟨S2x512x8x64, .f32⟩

abbrev bufTy : (tb : Table) → Fin (tcTables nBuf tb) → BufTy
  | .hbm, ⟨i, _⟩ => hbmTy i
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_4 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_5 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_cst_6 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_cst_7 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_cst_8 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩

abbrev nD : Nat := 1
abbrev τ : Topo := Topo.v7x

variable {F : FTy → Type} [FloatOps F]

class Facts₀ : Prop where
  slices_S2x512x8x64_S2x512x1x64_0_0_0_0 : S2x512x8x64.Slices ![0, 0, 0, 0] S2x512x1x64
  shapeCasts_S2x512x1x64_S2x512x64 : S2x512x1x64.ShapeCasts S2x512x64
  bcast_S2x512x64_S2x512x1x64_0_1_3 : S2x512x64.BroadcastsInDim S2x512x1x64 (![0, 1, 3] : Fin 3 → Fin S2x512x1x64.rank)
  bcast_S2x512x64_S2x1x512x64_0_2_3 : S2x512x64.BroadcastsInDim S2x1x512x64 (![0, 2, 3] : Fin 3 → Fin S2x1x512x64.rank)
  bcast_S2x512x1x64_S2x512x512x64_0_1_2_3 : S2x512x1x64.BroadcastsInDim S2x512x512x64 (![0, 1, 2, 3] : Fin 4 → Fin S2x512x512x64.rank)
  bcast_S2x1x512x64_S2x512x512x64_0_1_2_3 : S2x1x512x64.BroadcastsInDim S2x512x512x64 (![0, 1, 2, 3] : Fin 4 → Fin S2x512x512x64.rank)
  reducesTo_S2x512x512x64_S2x512x512_d3 : S2x512x512x64.ReducesTo [3] S2x512x512
  h_S_ : 0 < S_.numel
  bcast_S_S2x512x512 : S_.BroadcastsInDim S2x512x512 (![] : Fin 0 → Fin S2x512x512.rank)
  slices_S2x512x8x64_S2x512x1x64_0_0_1_0 : S2x512x8x64.Slices ![0, 0, 1, 0] S2x512x1x64
  slices_S2x512x8x64_S2x512x1x64_0_0_2_0 : S2x512x8x64.Slices ![0, 0, 2, 0] S2x512x1x64
  slices_S2x512x8x64_S2x512x1x64_0_0_3_0 : S2x512x8x64.Slices ![0, 0, 3, 0] S2x512x1x64
  slices_S2x512x8x64_S2x512x1x64_0_0_4_0 : S2x512x8x64.Slices ![0, 0, 4, 0] S2x512x1x64
  slices_S2x512x8x64_S2x512x1x64_0_0_5_0 : S2x512x8x64.Slices ![0, 0, 5, 0] S2x512x1x64
  slices_S2x512x8x64_S2x512x1x64_0_0_6_0 : S2x512x8x64.Slices ![0, 0, 6, 0] S2x512x1x64
  slices_S2x512x8x64_S2x512x1x64_0_0_7_0 : S2x512x8x64.Slices ![0, 0, 7, 0] S2x512x1x64
  bcast_S2x512x512_S2x512x512x1_0_1_2 : S2x512x512.BroadcastsInDim S2x512x512x1 (![0, 1, 2] : Fin 3 → Fin S2x512x512x1.rank)
  concatenates_S2x512x512x1_S2x512x512x1_S2x512x512x1_S2x512x512x1_S2x512x512x1_S2x512x512x1_S2x512x512x1_S2x512x512x1_S2x512x512x8_d3 : Shape.Concatenates [S2x512x512x1, S2x512x512x1, S2x512x512x1, S2x512x512x1, S2x512x512x1, S2x512x512x1, S2x512x512x1, S2x512x512x1] S2x512x512x8 3

variable [Facts₀]

class Facts : Prop extends Facts₀ where

variable [Facts]
-- ==== Proof.L1Spec.lean ====
/-
  The L1 ("Manhattan") attention score, as one function of the two argument arrays.

  For a query array `q` and a key array `k`, both indexed `(batch, position, head, feature)` with 64 features, the
  score at `(b, s, t, h)` is
      `−(1/8) · ∑_d |q(b, s, h, d) − k(b, t, h, d)|`,
  the sum over the 64 features, read on the extended reals.  `G` below is that function with the factor spelt by its
  binary32 word (`0xBE000000`, which denotes `−1/8` exactly).

  One program multiplies the sum by that word.  The other negates the sum (taken from the initial value `0`) and
  multiplies by `1 / √64`.  `scale_law` says these are the same extended real for EVERY value `s` of the sum, the
  infinities included: `√64 = 8` exactly, division of `1` by the real `8` is the product with `1/8`, and moving a sign
  across a product is valid on the extended reals.  No finiteness of the inputs is used.
-/
import Idealize.ShloMosaic.PureOps.Ideal
import Idealize.ShloMosaic.Lib.ValueIdx

noncomputable section

namespace Cert.L1Spec

open Idealize.ShloMosaic Idealize.ShloMosaic.ValueIdx

/-- The shape of each argument: `(batch, position, head, feature)`. -/
abbrev SArg : Shape := ⟨4, ![2, 512, 8, 64]⟩
/-- The shape of the result: `(batch, query position, key position, head)`. -/
abbrev SOut : Shape := ⟨4, ![2, 512, 512, 8]⟩

/-- The L1 distance between query row `(b, s, h)` and key row `(b, t, h)`: the sum over the 64 features of the absolute
    differences. -/
def dist (q k : SArg.Idx → EReal) (b : Fin 2) (s t : Fin 512) (h : Fin 8) : EReal :=
  ∑ d : Fin 64, FloatOps.absf (F := Ideal) (φ := .f32) (q (ix4 b s h d) - k (ix4 b t h d))

/-- The score array: `−1/8` (by its binary32 word) times the L1 distance. -/
def G (q k : SArg.Idx → EReal) : SOut.Idx → EReal :=
  fun i => Ideal.ofBits .f32 0xBE000000#32 * dist q k (i 0) (i 1) (i 2) (i 3)

theorem G_ix (q k : SArg.Idx → EReal) (b : Fin 2) (s t : Fin 512) (h : Fin 8) :
    G q k (ix4 b s t h) = Ideal.ofBits .f32 0xBE000000#32 * dist q k b s t h := rfl

/-! ## The float words, as the extended reals they denote -/

theorem word_zero : Ideal.ofBits .f32 0x00000000#32 = 0 := by
  simp [Ideal.ofBits, Ideal.ieee]
theorem word_one : Ideal.ofBits .f32 0x3F800000#32 = ((1 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_neg_eighth : Ideal.ofBits .f32 0xBE000000#32 = ((-(1 / 8) : ℝ) : EReal) := by
  simp [Ideal.ofBits, Ideal.ieee, -EReal.coe_mul]; norm_num

theorem sqrt_64 : Real.sqrt 64 = 8 := by
  rw [show (64 : ℝ) = 8 ^ 2 by norm_num, Real.sqrt_sq (by norm_num)]

/-- The sum from `0`, negated, times `1 / √64`, is `−1/8` times the sum: for every extended real `s`. -/
theorem scale_law (s : EReal) :
    (-(Ideal.ofBits .f32 0x00000000#32 + s))
        * Ideal.div (Ideal.ofBits .f32 0x3F800000#32) (Ideal.sqrt (Ideal.ofBits .f32 0x42800000#32))
      = Ideal.ofBits .f32 0xBE000000#32 * s := by
  rw [word_zero, word_one, word_64, word_neg_eighth, Ideal.sqrt_coe, if_neg (by norm_num), sqrt_64,
    Ideal.div_coe (by norm_num), zero_add, ← EReal.coe_mul, one_mul, EReal.neg_mul, mul_comm s, ← EReal.neg_mul,
    ← EReal.coe_neg]

end Cert.L1Spec

end
-- ==== Proof.RefScore.lean ====
/-
  The reference program's result, read at an index.

  The reference computes the score one head at a time.  For head `h` it slices the head out of both arguments, lays the
  query rows along one axis and the key rows along another, subtracts, takes absolute values, sums over the 64 features
  from the initial value `0`, negates, and multiplies by `1 / √64`; the eight `[2, 512, 512]` results are then stacked along
  a new last axis.  `head` is one head's stretch as a function of the slice's offset, `head_apply` reads it at
  `(b, s, t)`, `stack_apply` reads the stack at `(b, s, t, h)` as the `h`-th piece, and `result_eq` puts them together
  with the scalar law of the specification: the reference's result array is `G` of the arguments.
-/
import proofs.«160838_j41214506173057_2_alg».proof.Proof.Gen.ReferenceIdeal.Run
import proofs.«160838_j41214506173057_2_alg».proof.Proof.L1Spec
import Idealize.ShloMosaic.Lib.Pipeline.Value
import Idealize.ShloMosaic.Lib.ValueIdx
import Idealize.ShloMosaic.PureOps.Ideal.Laws

noncomputable section

namespace Cert.RefScore

open Cert.ReferenceIdeal Cert.ReferenceIdeal.Gen Idealize.ShloMosaic Idealize.ShloMosaic.TcCoe Idealize.ShloMosaic.ValueIdx Cert.L1Spec

/-- One head's stretch of the reference: the slice at offset `off` of both arguments, broadcast against each other,
    `|·−·|` summed over the features from `0`, negated, times `1 / √64`. -/
def head (off : Fin 4 → Nat) (hs : S2x512x8x64.Slices off S2x512x1x64) (x0 x1 : FVec Ideal S2x512x8x64 .f32) :
    FVec Ideal S2x512x512 .f32 :=
  mulf (Host.negf (Host.reduceAdd (Host.absf (subf (broadcastInDim S2x512x512x64 ![0, 1, 2, 3] bcast_S2x512x1x64_S2x512x512x64_0_1_2_3 (broadcastInDim S2x512x1x64 ![0, 1, 3] bcast_S2x512x64_S2x512x1x64_0_1_3 (shapeCast S2x512x64 (extractStridedSlice S2x512x1x64 off x0 hs) shapeCasts_S2x512x1x64_S2x512x64))) (broadcastInDim S2x512x512x64 ![0, 1, 2, 3] bcast_S2x1x512x64_S2x512x512x64_0_1_2_3 (broadcastInDim S2x1x512x64 ![0, 2, 3] bcast_S2x512x64_S2x1x512x64_0_2_3 (shapeCast S2x512x64 (extractStridedSlice S2x512x1x64 off x1 hs) shapeCasts_S2x512x1x64_S2x512x64))))) (constant S_ .f32 0x00000000#32) reducesTo_S2x512x512x64_S2x512x512_d3 h_S_)) (broadcastInDim S2x512x512 ![] bcast_S_S2x512x512 (Host.divf (constant S_ .f32 0x3F800000#32) (Host.sqrt (constant S_ .f32 0x42800000#32))))

/-- The head's slice, with its unit head axis dropped, read at `(b, s, d)`: the argument at `(b, s, h, d)`. -/
theorem slice_apply (off : Fin 4 → Nat) (hs : S2x512x8x64.Slices off S2x512x1x64) (x : FVec Ideal S2x512x8x64 .f32)
    (hh : Fin 8) (h0 : off 0 = 0) (h1 : off 1 = 0) (h2 : off 2 = hh.val) (h3 : off 3 = 0) (b : Fin 2) (s : Fin 512) (d : Fin 64) :
    shapeCast S2x512x64 (extractStridedSlice S2x512x1x64 off x hs) shapeCasts_S2x512x1x64_S2x512x64 (ix3 b s d) = x (ix4 b s hh d) := by
  refine (shapeCast_apply _ shapeCasts_S2x512x1x64_S2x512x64 (ix3 b s d) (ix4 b s (0 : Fin 1) d) ?_).trans ?_
  · rw [Shape.rowMajor_val_four, Shape.rowMajor_val_three]
    show ((b.val * 512 + s.val) * 1 + 0) * 64 + d.val = (b.val * 512 + s.val) * 64 + d.val
    omega
  · refine extractStridedSlice_apply off x hs _ (ix4 b s hh d) fun a => ?_
    match a with
    | ⟨0, _⟩ => show b.val = off 0 + b.val; omega
    | ⟨1, _⟩ => show s.val = off 1 + s.val; omega
    | ⟨2, _⟩ => show hh.val = off 2 + 0; omega
    | ⟨3, _⟩ => show d.val = off 3 + d.val; omega

/-- The query side laid out over `(b, s, t, d)` does not depend on `t`. -/
theorem qside_apply (v : FVec Ideal S2x512x64 .f32) (b : Fin 2) (s t : Fin 512) (d : Fin 64) :
    broadcastInDim S2x512x512x64 ![0, 1, 2, 3] bcast_S2x512x1x64_S2x512x512x64_0_1_2_3 (broadcastInDim S2x512x1x64 ![0, 1, 3] bcast_S2x512x64_S2x512x1x64_0_1_3 v) (ix4 b s t d) = v (ix3 b s d) := by
  refine (broadcastInDim_apply _ bcast_S2x512x1x64_S2x512x512x64_0_1_2_3 _ (ix4 b s t d) (ix4 b s (0 : Fin 1) d) fun a => ?_).trans
    (broadcastInDim_apply _ bcast_S2x512x64_S2x512x1x64_0_1_3 v (ix4 b s (0 : Fin 1) d) (ix3 b s d) fun a => ?_)
  · match a with
    | ⟨0, _⟩ => show b.val = if (2 : Nat) = 1 then 0 else b.val; rw [if_neg (by decide)]
    | ⟨1, _⟩ => show s.val = if (512 : Nat) = 1 then 0 else s.val; rw [if_neg (by decide)]
    | ⟨2, _⟩ => show 0 = if (1 : Nat) = 1 then 0 else t.val; rw [if_pos rfl]
    | ⟨3, _⟩ => show d.val = if (64 : Nat) = 1 then 0 else d.val; rw [if_neg (by decide)]
  · match a with
    | ⟨0, _⟩ => show b.val = if (2 : Nat) = 1 then 0 else b.val; rw [if_neg (by decide)]
    | ⟨1, _⟩ => show s.val = if (512 : Nat) = 1 then 0 else s.val; rw [if_neg (by decide)]
    | ⟨2, _⟩ => show d.val = if (64 : Nat) = 1 then 0 else d.val; rw [if_neg (by decide)]

/-- The key side laid out over `(b, s, t, d)` does not depend on `s`. -/
theorem kside_apply (v : FVec Ideal S2x512x64 .f32) (b : Fin 2) (s t : Fin 512) (d : Fin 64) :
    broadcastInDim S2x512x512x64 ![0, 1, 2, 3] bcast_S2x1x512x64_S2x512x512x64_0_1_2_3 (broadcastInDim S2x1x512x64 ![0, 2, 3] bcast_S2x512x64_S2x1x512x64_0_2_3 v) (ix4 b s t d) = v (ix3 b t d) := by
  refine (broadcastInDim_apply _ bcast_S2x1x512x64_S2x512x512x64_0_1_2_3 _ (ix4 b s t d) (ix4 b (0 : Fin 1) t d) fun a => ?_).trans
    (broadcastInDim_apply _ bcast_S2x512x64_S2x1x512x64_0_2_3 v (ix4 b (0 : Fin 1) t d) (ix3 b t d) fun a => ?_)
  · match a with
    | ⟨0, _⟩ => show b.val = if (2 : Nat) = 1 then 0 else b.val; rw [if_neg (by decide)]
    | ⟨1, _⟩ => show 0 = if (1 : Nat) = 1 then 0 else s.val; rw [if_pos rfl]
    | ⟨2, _⟩ => show t.val = if (512 : Nat) = 1 then 0 else t.val; rw [if_neg (by decide)]
    | ⟨3, _⟩ => show d.val = if (64 : Nat) = 1 then 0 else d.val; rw [if_neg (by decide)]
  · match a with
    | ⟨0, _⟩ => show b.val = if (2 : Nat) = 1 then 0 else b.val; rw [if_neg (by decide)]
    | ⟨1, _⟩ => show t.val = if (512 : Nat) = 1 then 0 else t.val; rw [if_neg (by decide)]
    | ⟨2, _⟩ => show d.val = if (64 : Nat) = 1 then 0 else d.val; rw [if_neg (by decide)]

/-- The host's sum over the last axis from the initial value `0`, read at `(b, s, t)`. -/
theorem sum_apply (V : FVec Ideal S2x512x512x64 .f32) (b : Fin 2) (s t : Fin 512) :
    Host.reduceAdd V (constant S_ .f32 0x00000000#32) reducesTo_S2x512x512x64_S2x512x512_d3 h_S_ (ix3 b s t)
      = Ideal.ofBits .f32 0x00000000#32 + ∑ d : Fin 64, V (ix4 b s t d) := by
  simp only [Host.reduceAdd, Ideal.hostReduceAdd_def]
  rw [Ideal.hostReduceAdd_single reducesTo_S2x512x512x64_S2x512x512_d3 (by decide)]
  refine congrArg₂ (· + ·) rfl (Finset.sum_congr rfl fun k _ => ?_)
  exact congrArg V (funext fun a => Fin.ext (by match a with | ⟨0, _⟩ => rfl | ⟨1, _⟩ => rfl | ⟨2, _⟩ => rfl | ⟨3, _⟩ => rfl))

/-- One head at `(b, s, t)`: the negated sum from `0` of `|q − k|` over the features, times `1 / √64`. -/
theorem head_apply (off : Fin 4 → Nat) (hs : S2x512x8x64.Slices off S2x512x1x64) (x0 x1 : FVec Ideal S2x512x8x64 .f32)
    (hh : Fin 8) (h0 : off 0 = 0) (h1 : off 1 = 0) (h2 : off 2 = hh.val) (h3 : off 3 = 0) (b : Fin 2) (s t : Fin 512) :
    head off hs x0 x1 (ix3 b s t)
      = (-(Ideal.ofBits .f32 0x00000000#32 + dist x0 x1 b s t hh))
          * Ideal.div (Ideal.ofBits .f32 0x3F800000#32) (Ideal.sqrt (Ideal.ofBits .f32 0x42800000#32)) := by
  unfold head
  rw [mulf_apply]
  refine congrArg₂ (· * ·) ?_ ?_
  · refine (congrArg (fun z : EReal => -z) (sum_apply _ b s t)).trans ?_
    refine congrArg (fun z : EReal => -(Ideal.ofBits .f32 0x00000000#32 + z)) (Finset.sum_congr rfl fun d _ => ?_)
    show FloatOps.absf (F := Ideal) (φ := .f32) (_ - _) = _
    rw [qside_apply, kside_apply, slice_apply off hs x0 hh h0 h1 h2 h3, slice_apply off hs x1 hh h0 h1 h2 h3]
  · exact (broadcastInDim_apply _ bcast_S_S2x512x512 _ (ix3 b s t) ix0 (fun a => a.elim0)).trans rfl

/-- One head's result as a column `[2, 512, 512, 1]`, ready to be stacked. -/
def headCol (off : Fin 4 → Nat) (hs : S2x512x8x64.Slices off S2x512x1x64) (x0 x1 : FVec Ideal S2x512x8x64 .f32) :
    FVec Ideal S2x512x512x1 .f32 :=
  broadcastInDim S2x512x512x1 ![0, 1, 2] bcast_S2x512x512_S2x512x512x1_0_1_2 (head off hs x0 x1)

/-- A head's column at `(b, s, t, 0)` is the score `G` at `(b, s, t, h)`: the head read at `(b, s, t)`, then the scalar law. -/
theorem headCol_score (off : Fin 4 → Nat) (hs : S2x512x8x64.Slices off S2x512x1x64) (x0 x1 : FVec Ideal S2x512x8x64 .f32)
    (hh : Fin 8) (h0 : off 0 = 0) (h1 : off 1 = 0) (h2 : off 2 = hh.val) (h3 : off 3 = 0) (b : Fin 2) (s t : Fin 512) (o : Fin 1) :
    headCol off hs x0 x1 (ix4 b s t o) = G x0 x1 (ix4 b s t hh) := by
  refine (broadcastInDim_apply _ bcast_S2x512x512_S2x512x512x1_0_1_2 _ (ix4 b s t o) (ix3 b s t) fun a => ?_).trans
    ((head_apply off hs x0 x1 hh h0 h1 h2 h3 b s t).trans (scale_law _))
  match a with
  | ⟨0, _⟩ => show b.val = if (2 : Nat) = 1 then 0 else b.val; rw [if_neg (by decide)]
  | ⟨1, _⟩ => show s.val = if (512 : Nat) = 1 then 0 else s.val; rw [if_neg (by decide)]
  | ⟨2, _⟩ => show t.val = if (512 : Nat) = 1 then 0 else t.val; rw [if_neg (by decide)]

/-- Eight columns stacked along the last axis, read at `(b, s, t, h)`: column `h` at `(b, s, t, 0)`.  Stated with the value `P`
    each column is to have there, so that the caller names it once. -/
theorem stack_apply (u0 u1 u2 u3 u4 u5 u6 u7 : FVec Ideal S2x512x512x1 .f32)
    (hc : Shape.Concatenates (([⟨S2x512x512x1, u0⟩, ⟨S2x512x512x1, u1⟩, ⟨S2x512x512x1, u2⟩, ⟨S2x512x512x1, u3⟩, ⟨S2x512x512x1, u4⟩, ⟨S2x512x512x1, u5⟩, ⟨S2x512x512x1, u6⟩, ⟨S2x512x512x1, u7⟩] : List ((s : Shape) × (s.Idx → EReal))).map (·.1)) S2x512x512x8 3)
    (b : Fin 2) (s t : Fin 512) (h : Fin 8) (P : EReal)
    (h0 : h.val = 0 → u0 (ix4 b s t (0 : Fin 1)) = P) (h1 : h.val = 1 → u1 (ix4 b s t (0 : Fin 1)) = P)
    (h2 : h.val = 2 → u2 (ix4 b s t (0 : Fin 1)) = P) (h3 : h.val = 3 → u3 (ix4 b s t (0 : Fin 1)) = P)
    (h4 : h.val = 4 → u4 (ix4 b s t (0 : Fin 1)) = P) (h5 : h.val = 5 → u5 (ix4 b s t (0 : Fin 1)) = P)
    (h6 : h.val = 6 → u6 (ix4 b s t (0 : Fin 1)) = P) (h7 : h.val = 7 → u7 (ix4 b s t (0 : Fin 1)) = P) :
    concatenate S2x512x512x8 3 [⟨S2x512x512x1, u0⟩, ⟨S2x512x512x1, u1⟩, ⟨S2x512x512x1, u2⟩, ⟨S2x512x512x1, u3⟩, ⟨S2x512x512x1, u4⟩, ⟨S2x512x512x1, u5⟩, ⟨S2x512x512x1, u6⟩, ⟨S2x512x512x1, u7⟩] hc (ix4 b s t h) = P :=
  match h with
  | ⟨0, _⟩ => (concatenate_apply_piece 3 _ hc (ix4 b s t _) 0 (by show (0 : Nat) < 8; omega) S2x512x512x1 u0 rfl rfl 0 rfl (ix4 b s t (0 : Fin 1)) (fun a ha => by
      match a with
      | ⟨0, _⟩ => rfl
      | ⟨1, _⟩ => rfl
      | ⟨2, _⟩ => rfl
      | ⟨3, _⟩ => exact absurd rfl ha) rfl).trans (h0 rfl)
  | ⟨1, _⟩ => (concatenate_apply_piece 3 _ hc (ix4 b s t _) 1 (by show (1 : Nat) < 8; omega) S2x512x512x1 u1 rfl rfl 1 rfl (ix4 b s t (0 : Fin 1)) (fun a ha => by
      match a with
      | ⟨0, _⟩ => rfl
      | ⟨1, _⟩ => rfl
      | ⟨2, _⟩ => rfl
      | ⟨3, _⟩ => exact absurd rfl ha) rfl).trans (h1 rfl)
  | ⟨2, _⟩ => (concatenate_apply_piece 3 _ hc (ix4 b s t _) 2 (by show (2 : Nat) < 8; omega) S2x512x512x1 u2 rfl rfl 2 rfl (ix4 b s t (0 : Fin 1)) (fun a ha => by
      match a with
      | ⟨0, _⟩ => rfl
      | ⟨1, _⟩ => rfl
      | ⟨2, _⟩ => rfl
      | ⟨3, _⟩ => exact absurd rfl ha) rfl).trans (h2 rfl)
  | ⟨3, _⟩ => (concatenate_apply_piece 3 _ hc (ix4 b s t _) 3 (by show (3 : Nat) < 8; omega) S2x512x512x1 u3 rfl rfl 3 rfl (ix4 b s t (0 : Fin 1)) (fun a ha => by
      match a with
      | ⟨0, _⟩ => rfl
      | ⟨1, _⟩ => rfl
      | ⟨2, _⟩ => rfl
      | ⟨3, _⟩ => exact absurd rfl ha) rfl).trans (h3 rfl)
  | ⟨4, _⟩ => (concatenate_apply_piece 3 _ hc (ix4 b s t _) 4 (by show (4 : Nat) < 8; omega) S2x512x512x1 u4 rfl rfl 4 rfl (ix4 b s t (0 : Fin 1)) (fun a ha => by
      match a with
      | ⟨0, _⟩ => rfl
      | ⟨1, _⟩ => rfl
      | ⟨2, _⟩ => rfl
      | ⟨3, _⟩ => exact absurd rfl ha) rfl).trans (h4 rfl)
  | ⟨5, _⟩ => (concatenate_apply_piece 3 _ hc (ix4 b s t _) 5 (by show (5 : Nat) < 8; omega) S2x512x512x1 u5 rfl rfl 5 rfl (ix4 b s t (0 : Fin 1)) (fun a ha => by
      match a with
      | ⟨0, _⟩ => rfl
      | ⟨1, _⟩ => rfl
      | ⟨2, _⟩ => rfl
      | ⟨3, _⟩ => exact absurd rfl ha) rfl).trans (h5 rfl)
  | ⟨6, _⟩ => (concatenate_apply_piece 3 _ hc (ix4 b s t _) 6 (by show (6 : Nat) < 8; omega) S2x512x512x1 u6 rfl rfl 6 rfl (ix4 b s t (0 : Fin 1)) (fun a ha => by
      match a with
      | ⟨0, _⟩ => rfl
      | ⟨1, _⟩ => rfl
      | ⟨2, _⟩ => rfl
      | ⟨3, _⟩ => exact absurd rfl ha) rfl).trans (h6 rfl)
  | ⟨7, _⟩ => (concatenate_apply_piece 3 _ hc (ix4 b s t _) 7 (by show (7 : Nat) < 8; omega) S2x512x512x1 u7 rfl rfl 7 rfl (ix4 b s t (0 : Fin 1)) (fun a ha => by
      match a with
      | ⟨0, _⟩ => rfl
      | ⟨1, _⟩ => rfl
      | ⟨2, _⟩ => rfl
      | ⟨3, _⟩ => exact absurd rfl ha) rfl).trans (h7 rfl)

/-- The reference's whole result: the eight heads' columns stacked. -/
def stacked (x0 x1 : FVec Ideal S2x512x8x64 .f32) : FVec Ideal S2x512x512x8 .f32 :=
  concatenate S2x512x512x8 3 [⟨S2x512x512x1, headCol ![0, 0, 0, 0] slices_S2x512x8x64_S2x512x1x64_0_0_0_0 x0 x1⟩, ⟨S2x512x512x1, headCol ![0, 0, 1, 0] slices_S2x512x8x64_S2x512x1x64_0_0_1_0 x0 x1⟩, ⟨S2x512x512x1, headCol ![0, 0, 2, 0] slices_S2x512x8x64_S2x512x1x64_0_0_2_0 x0 x1⟩, ⟨S2x512x512x1, headCol ![0, 0, 3, 0] slices_S2x512x8x64_S2x512x1x64_0_0_3_0 x0 x1⟩, ⟨S2x512x512x1, headCol ![0, 0, 4, 0] slices_S2x512x8x64_S2x512x1x64_0_0_4_0 x0 x1⟩, ⟨S2x512x512x1, headCol ![0, 0, 5, 0] slices_S2x512x8x64_S2x512x1x64_0_0_5_0 x0 x1⟩, ⟨S2x512x512x1, headCol ![0, 0, 6, 0] slices_S2x512x8x64_S2x512x1x64_0_0_6_0 x0 x1⟩, ⟨S2x512x512x1, headCol ![0, 0, 7, 0] slices_S2x512x8x64_S2x512x1x64_0_0_7_0 x0 x1⟩] concatenates_S2x512x512x1_S2x512x512x1_S2x512x512x1_S2x512x512x1_S2x512x512x1_S2x512x512x1_S2x512x512x1_S2x512x512x1_S2x512x512x8_d3

/-- The reference's result array is the score array `G` of its arguments. -/
theorem stacked_eq (x0 x1 : FVec Ideal S2x512x8x64 .f32) : stacked x0 x1 = G x0 x1 := by
  funext i
  obtain ⟨b, s, t, h, rfl⟩ : ∃ (b : Fin 2) (s t : Fin 512) (h : Fin 8), i = ix4 b s t h := ⟨i 0, i 1, i 2, i 3, eq_ix4 i⟩
  unfold stacked
  exact stack_apply _ _ _ _ _ _ _ _ _ b s t h _
    (fun e => headCol_score _ _ x0 x1 h rfl rfl e.symm rfl b s t 0) (fun e => headCol_score _ _ x0 x1 h rfl rfl e.symm rfl b s t 0)
    (fun e => headCol_score _ _ x0 x1 h rfl rfl e.symm rfl b s t 0) (fun e => headCol_score _ _ x0 x1 h rfl rfl e.symm rfl b s t 0)
    (fun e => headCol_score _ _ x0 x1 h rfl rfl e.symm rfl b s t 0) (fun e => headCol_score _ _ x0 x1 h rfl rfl e.symm rfl b s t 0)
    (fun e => headCol_score _ _ x0 x1 h rfl rfl e.symm rfl b s t 0) (fun e => headCol_score _ _ x0 x1 h rfl rfl e.symm rfl b s t 0)

/-- The term the generated run names as the reference's result is `stacked` of the argument arrays: the same operations in
    the same order, head by head. -/
theorem res_eq (m : (ℓ : Loc nD τ sig) → Buf (Elt Ideal) ℓ) (c : Dev nD) :
    Cert.ReferenceIdeal.Value.res_main_v122 (F := Ideal) m c
      = stacked (m ((c.tc : Thread nD τ).loc main_arg0)) (m ((c.tc : Thread nD τ).loc main_arg1)) := by
  unfold Cert.ReferenceIdeal.Value.res_main_v122; rfl

end Cert.RefScore

end
-- ==== Proof.LibUnitAxis.lean ====
/-
  Casts between a rank-2 shape `[a, b]` and the same data with a unit axis, leading `[1, a, b]` or in the middle
  `[a, 1, b]`, read at an index written by its coordinates: dropping a leading unit axis reads `(p, q)` at `(0, p, q)`,
  adding it reads `(o, p, q)` at `(p, q)`, dropping a middle unit axis reads `(p, q)` at `(p, 0, q)` — in each case the
  two indices have the same row-major position.
-/
import Idealize.ShloMosaic.Lib.ValueIdx
import Idealize.ShloMosaic.Lib.Pipeline.Value

noncomputable section

namespace Cert.LibUnitAxis

open Idealize.ShloMosaic Idealize.ShloMosaic.ValueIdx

/-- `[1, a, b]` viewed as `[a, b]`: entry `(p, q)` is entry `(0, p, q)`. -/
theorem dropUnit_ix {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    simp)

/-- `[a, b]` viewed as `[1, a, b]`: entry `(o, p, q)` is entry `(p, q)`. -/
theorem addUnit_ix {α : Type} {a b : Nat} (v : (⟨2, ![a, b]⟩ : Shape).Idx → α)
    (h : (⟨2, ![a, b]⟩ : Shape).ShapeCasts ⟨3, ![1, a, b]⟩) (o : Fin 1) (p : Fin a) (q : Fin b) :
    shapeCast ⟨3, ![1, a, b]⟩ v h (ix3 o p q) = v (ix2 p q) :=
  shapeCast_apply v h _ _ (by
    rw [Shape.rowMajor_val_three, Shape.rowMajor_val_two]
    show p.val * b + q.val = (o.val * a + p.val) * b + q.val
    have : o.val = 0 := by omega
    simp [this])

/-- `[a, 1, b]` viewed as `[a, b]`: entry `(p, q)` is entry `(p, 0, q)`. -/
theorem dropMid_ix {α : Type} {a b : Nat} (v : (⟨3, ![a, 1, b]⟩ : Shape).Idx → α)
    (h : (⟨3, ![a, 1, b]⟩ : Shape).ShapeCasts ⟨2, ![a, b]⟩) (p : Fin a) (q : Fin b) :
    shapeCast ⟨2, ![a, b]⟩ v h (ix2 p q) = v (ix3 p (0 : Fin 1) q) :=
  shapeCast_apply v h _ _ (by
    rw [Shape.rowMajor_val_three, Shape.rowMajor_val_two]
    show (p.val * 1 + 0) * b + q.val = p.val * b + q.val
    simp)

end Cert.LibUnitAxis

end
-- ==== Proof.KernelChunk.lean ====
/-
  What the kernel body stores for one chunk of 64 query rows, read at an index.

  The body loads the key block once, already transposed: `kc(d, x)` for feature `d` and key column `x` (64 × 256).  For
  each of four chunks of 64 query rows it loads `qc(r, d)`, forms `|qc(r, d) − kc(d, x)|` over `(r, d, x)`, sums over the
  middle axis `d` and multiplies by the word of `−1/8`.  All four stores are this one function `chunk` of the key block
  and the chunk's query rows (`pay1_eq` … `pay5_eq`, each by unfolding), and `chunk_apply` reads it at row `r`, column `x`:
      `−1/8 · ∑_d |qc(r, d) − kc(d, x)|`.
-/
import proofs.«160838_j41214506173057_2_alg».proof.Proof.Gen.KernelIdeal.Skeleton
import proofs.«160838_j41214506173057_2_alg».proof.Proof.LibUnitAxis
import Idealize.ShloMosaic.Lib.Pipeline.Value
import Idealize.ShloMosaic.Lib.ValueIdx
import Idealize.ShloMosaic.PureOps.Ideal.Laws

noncomputable section

namespace Cert.KernelChunk

open Cert.KernelIdeal Cert.KernelIdeal.Gen Idealize.ShloMosaic Idealize.ShloMosaic.ValueIdx

variable {F : FTy → Type} [FloatOps F]

/-- One chunk's stored value from the key block `kc` (as `[64, 256]`) and the chunk's query rows `qc` (as `[64, 64, 1]`). -/
def chunk (kc : FVec F S64x256 .f32) (qc : FVec F S64x64x1 .f32) : FVec F S1x64x256 .f32 :=
  shapeCast S1x64x256 (mulf (broadcast S64x256 (Scalar.ofBits .f32 0xBE000000#32)) (multiReduction .add [1] S64x256 (absf (subf (broadcastTo S64x64x256 qc broadcasts_S64x64x1_S64x64x256) (broadcastTo S64x64x256 (shapeCast S1x64x256 kc shapeCasts_S64x256_S1x64x256) broadcasts_S1x64x256_S64x64x256))) 0x00000000#32 reduces_S64x64x256_S64x256 (.inl rfl) rfl)) shapeCasts_S64x256_S1x64x256

theorem pay4_eq (v0 : Vec F S1x64x256 .f32) (v2 : Vec F S1x64x64 .f32) : k0_pay4 v0 v2 = chunk (k0_pay3 v0) (k0_pay6 v2) := rfl
theorem pay5_eq (v0 : Vec F S1x64x256 .f32) (v16 : Vec F S1x64x64 .f32) : k0_pay5 v0 v16 = chunk (k0_pay3 v0) (k0_pay6 v16) := rfl
theorem pay1_eq (v1 : FVec F S64x256 .f32) (v32 : FVec F S64x64x1 .f32) : k0_pay1 v1 v32 = chunk v1 v32 := rfl
theorem pay2_eq (v1 : FVec F S64x256 .f32) (v44 : Vec F S1x64x64 .f32) : k0_pay2 v1 v44 = chunk v1 (k0_pay6 v44) := rfl

/-- The loaded key block `[1, 64, 256]` viewed as `[64, 256]`. -/
theorem keys_apply (v0 : FVec Ideal S1x64x256 .f32) (d : Fin 64) (x : Fin 256) :
    k0_pay3 v0 (ix2 d x) = v0 (ix3 (0 : Fin 1) d x) :=
  Cert.LibUnitAxis.dropUnit_ix v0 shapeCasts_S1x64x256_S64x256 d x

/-- The loaded query rows `[1, 64, 64]` viewed as `[64, 64, 1]`. -/
theorem queries_apply (v : FVec Ideal S1x64x64 .f32) (r d : Fin 64) (o : Fin 1) :
    k0_pay6 v (ix3 r d o) = v (ix3 (0 : Fin 1) r d) := by
  unfold k0_pay6
  refine (shapeCast_apply _ shapeCasts_S64x64_S64x64x1 (ix3 r d o) (ix2 r d) ?_).trans
    (Cert.LibUnitAxis.dropUnit_ix v shapeCasts_S1x64x64_S64x64 r d)
  rw [Shape.rowMajor_val_two, Shape.rowMajor_val_three]
  show r.val * 64 + d.val = (r.val * 64 + d.val) * 1 + o.val
  omega

/-- The chunk at row `r`, column `x`: `−1/8` times the sum over the features of `|qc(r, d) − kc(d, x)|`. -/
theorem chunk_apply (kc : FVec Ideal S64x256 .f32) (qc : FVec Ideal S64x64x1 .f32) (o : Fin 1) (r : Fin 64) (x : Fin 256) :
    chunk kc qc (ix3 o r x)
      = Ideal.ofBits .f32 0xBE000000#32
          * ∑ d : Fin 64, FloatOps.absf (F := Ideal) (φ := .f32) (qc (ix3 r d (0 : Fin 1)) - kc (ix2 d x)) := by
  unfold chunk
  refine (Cert.LibUnitAxis.addUnit_ix _ shapeCasts_S64x256_S1x64x256 o r x).trans ?_
  refine congrArg (fun z : EReal => Ideal.ofBits .f32 0xBE000000#32 * z) ?_
  refine (Ideal.multiReduction_add_single _ 0x00000000#32 reduces_S64x64x256_S64x256 (.inl rfl) rfl (ix2 r x)).trans ?_
  refine Finset.sum_congr rfl fun d _ => ?_
  have hl : reduces_S64x64x256_S64x256.lift (ix2 r x) d = ix3 r d x :=
    funext fun a => Fin.ext (by match a with | ⟨0, _⟩ => rfl | ⟨1, _⟩ => rfl | ⟨2, _⟩ => rfl)
  rw [hl]
  refine congrArg₂ (fun u v : EReal => FloatOps.absf (F := Ideal) (φ := .f32) (u - v)) ?_ ?_
  · refine broadcastTo_apply qc broadcasts_S64x64x1_S64x64x256 (ix3 r d x) (ix3 r d (0 : Fin 1)) fun a => ?_
    match a with
    | ⟨0, _⟩ => show r.val = if (64 : Nat) = 1 then 0 else r.val; rw [if_neg (by decide)]
    | ⟨1, _⟩ => show d.val = if (64 : Nat) = 1 then 0 else d.val; rw [if_neg (by decide)]
    | ⟨2, _⟩ => show 0 = if (1 : Nat) = 1 then 0 else x.val; rw [if_pos rfl]
  · refine (broadcastTo_apply _ broadcasts_S1x64x256_S64x64x256 (ix3 r d x) (ix3 (0 : Fin 1) d x) fun a => ?_).trans
      (Cert.LibUnitAxis.addUnit_ix kc shapeCasts_S64x256_S1x64x256 0 d x)
    match a with
    | ⟨0, _⟩ => show 0 = if (1 : Nat) = 1 then 0 else r.val; rw [if_pos rfl]
    | ⟨1, _⟩ => show d.val = if (64 : Nat) = 1 then 0 else d.val; rw [if_neg (by decide)]
    | ⟨2, _⟩ => show x.val = if (256 : Nat) = 1 then 0 else x.val; rw [if_neg (by decide)]

end Cert.KernelChunk

end
-- ==== Proof.KernelBlock.lean ====
/-
  What the kernel body leaves in the output window's buffer, read at an index.

  The buffer `[1, 256, 256]` is written by four stores, one per chunk of 64 query rows: rows `64k … 64k + 63` receive the
  chunk function of the key block and of rows `64k … 64k + 63` of the query block.  Each store's value at its local index
  is therefore ONE function of the buffer index — `blockAt`: at row `r`, column `x`,
      `−1/8 · ∑_d |x0(r, d) − x1(d, x)|`
  with `x0` the query block `[1, 256, 64]` and `x1` the transposed key block `[1, 64, 256]` — and the four rectangles tile
  the buffer, so the buffer holds that function everywhere (`out_apply`).
-/
import proofs.«160838_j41214506173057_2_alg».proof.Proof.Gen.KernelIdeal.Frame
import proofs.«160838_j41214506173057_2_alg».proof.Proof.KernelChunk
import Idealize.ShloMosaic.Lib.Pipeline.Value
import Idealize.ShloMosaic.Lib.ValueIdx

noncomputable section

namespace Cert.KernelBlock

open Cert.KernelIdeal Cert.KernelIdeal.Gen Cert.KernelChunk Idealize.ShloMosaic Idealize.ShloMosaic.ValueIdx

theorem hz3 : (![0, 0, 0] : Fin 3 → Nat) = fun _ => 0 := funext fun a => by fin_cases a <;> rfl

/-- The output block at row `r`, column `x`, from the query block `x0` and the transposed key block `x1`. -/
def blockAt (x0 : Vec Ideal S1x256x64 .f32) (x1 : Vec Ideal S1x64x256 .f32) (r x : Fin 256) : EReal :=
  Ideal.ofBits .f32 0xBE000000#32
    * ∑ d : Fin 64, FloatOps.absf (F := Ideal) (φ := .f32) (x0 (ix3 (0 : Fin 1) r d) - x1 (ix3 (0 : Fin 1) d x))

/-- The same as a function of the buffer index. -/
def blockFun (x0 : Vec Ideal S1x256x64 .f32) (x1 : Vec Ideal S1x64x256 .f32) : S1x256x256.Idx → EReal :=
  fun y => blockAt x0 x1 (y 1) (y 2)

/-- The chunk stored through rows `k … k + 63` agrees with `blockFun` on those rows. -/
theorem piece_eq (x0 : Vec Ideal S1x256x64 .f32) (x1 : Vec Ideal S1x64x256 .f32) (k : Nat)
    (inbq : ∀ a, (![0, k, 0] : Fin 3 → Nat) a + S1x64x64.size a ≤ S1x256x64.size a)
    (inbo : ∀ a, (![0, k, 0] : Fin 3 → Nat) a + S1x64x256.size a ≤ S1x256x256.size a)
    (z : (Rect.unit (s := S1x256x256) ![0, k, 0] S1x64x256.size inbo).shape.Idx) :
    chunk (k0_pay3 (View.ld x1 r0_0)) (k0_pay6 (View.ld x0 (Rect.unit (s := S1x256x64) ![0, k, 0] S1x64x64.size inbq))) z
      = blockFun x0 x1 ((Rect.unit (s := S1x256x256) ![0, k, 0] S1x64x256.size inbo).emb z) := by
  obtain ⟨o', r', x', rfl⟩ : ∃ (o' : Fin 1) (r' : Fin 64) (x' : Fin 256), z = ix3 o' r' x' := ⟨z 0, z 1, z 2, eq_ix3 z⟩
  refine (chunk_apply _ _ o' r' x').trans ?_
  refine congrArg (fun u : EReal => Ideal.ofBits .f32 0xBE000000#32 * u) (Finset.sum_congr rfl fun d _ => ?_)
  rw [queries_apply, keys_apply, View.ld_unit_zero hz3]
  refine congrArg₂ (fun u v : EReal => FloatOps.absf (F := Ideal) (φ := .f32) (u - v)) ?_ ?_
  · show x0 ((Rect.unit (s := S1x256x64) ![0, k, 0] S1x64x64.size inbq).emb (ix3 (0 : Fin 1) r' d)) = _
    refine congrArg x0 (funext fun a => Fin.ext ?_)
    match a with
    | ⟨0, _⟩ => rw [Rect.emb_apply]; rfl
    | ⟨1, _⟩ => rw [Rect.emb_apply, Rect.emb_apply]; rfl
    | ⟨2, _⟩ => rw [Rect.emb_apply]; show 0 + 1 * d.val = d.val; omega
  · refine congrArg x1 (funext fun a => Fin.ext ?_)
    match a with
    | ⟨0, _⟩ => rfl
    | ⟨1, _⟩ => rfl
    | ⟨2, _⟩ => rw [Rect.emb_apply]; show x'.val = 0 + 1 * x'.val; omega

/-- THE OUTPUT BLOCK after the body: `blockAt` of the two input blocks, at every row and column. -/
theorem out_apply (x0 : Vec Ideal S1x256x64 .f32) (x1 : Vec Ideal S1x64x256 .f32) (o : Fin 1) (r x : Fin 256) :
    out0_2 x0 x1 (ix3 o r x) = blockAt x0 x1 r x := by
  unfold out0_2
  refine View.canon_apply_of_pieces (Val := Elt Ideal) (blockFun x0 x1) _ (fun p hp => ?_) (ix3 o r x) (cover0_2 _ _ _ _ (ix3 o r x))
  simp only [List.mem_cons, List.mem_nil_iff, or_false] at hp
  rcases hp with rfl | rfl | rfl | rfl
  · intro z; rw [pay2_eq]; exact piece_eq x0 x1 192 inb_S1x256x64_S1x64x64_0_192_0 inb_S1x256x256_S1x64x256_0_192_0 z
  · intro z; rw [pay1_eq]; exact piece_eq x0 x1 128 inb_S1x256x64_S1x64x64_0_128_0 inb_S1x256x256_S1x64x256_0_128_0 z
  · intro z; rw [pay5_eq]; exact piece_eq x0 x1 64 inb_S1x256x64_S1x64x64_0_64_0 inb_S1x256x256_S1x64x256_0_64_0 z
  · intro z; rw [pay4_eq]; exact piece_eq x0 x1 0 inb_S1x256x64_S1x64x64_0_0_0 inb_S1x256x256_S1x64x256_0_0_0 z

/-- The same as an equation of whole blocks. -/
theorem out_eq (x0 : Vec Ideal S1x256x64 .f32) (x1 : Vec Ideal S1x64x256 .f32) : out0_2 x0 x1 = blockFun x0 x1 := by
  funext y
  rw [eq_ix3 y]
  exact out_apply x0 x1 _ _ _

end Cert.KernelBlock

end
-- ==== Proof.KernelArray.lean ====
/-
  From the blocks to the region's whole result array.

  The region runs over a grid of `16 × 2 × 2` points.  At point `(g, i, j)` the query window holds rows `256 i … 256 i + 255`
  of slab `g` of the query array `A0 : [16, 512, 64]`, the key window holds columns `256 j … 256 j + 255` of slab `g` of the
  transposed key array `A1 : [16, 64, 512]`, and the output window is block `(g, i, j)` of the result `[16, 512, 512]`.
  So what a point writes back is the restriction to its block of ONE function of the two arrays,
      `regionAt A0 A1 g s t = −1/8 · ∑_d |A0(g, s, d) − A1(g, d, t)|`
  (`flushed_eq`), the blocks cover the result array (`cover`: index `(g, s, t)` lies in the block of point
  `(g, s / 256, t / 256)`), and the array after the run is that function (`final`).
-/
import proofs.«160838_j41214506173057_2_alg».proof.Proof.Gen.KernelIdeal.Frame
import proofs.«160838_j41214506173057_2_alg».proof.Proof.KernelBlock
import Idealize.ShloMosaic.Lib.Pipeline.Value
import Idealize.ShloMosaic.Lib.ValueIdx

noncomputable section

namespace Cert.KernelArray

open Cert.KernelIdeal Cert.KernelIdeal.Gen Cert.KernelBlock Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The region's result at slab `g`, row `s`, column `t`, from the two window arrays. -/
def regionAt (A0 : S16x512x64.Idx → EReal) (A1 : S16x64x512.Idx → EReal) (g : Fin 16) (s t : Fin 512) : EReal :=
  Ideal.ofBits .f32 0xBE000000#32
    * ∑ d : Fin 64, FloatOps.absf (F := Ideal) (φ := .f32) (A0 (ix3 g s d) - A1 (ix3 g d t))

/-- The same as a function of the array index. -/
def regionFun (A0 : S16x512x64.Idx → EReal) (A1 : S16x64x512.Idx → EReal) : S16x512x512.Idx → EReal :=
  fun i => regionAt A0 A1 (i 0) (i 1) (i 2)

/-- The three windows' block indices at a point, decided once over the grid: the query window follows the output's slab
    and row block, the key window its slab and column block, and the output's block indices stay in range. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = win0_2.index t (2 : Fin 3)
    ∧ win0_2.index t (0 : Fin 3) ≤ 15 ∧ win0_2.index t (1 : Fin 3) ≤ 1 ∧ win0_2.index t (2 : Fin 3) ≤ 1 :=
  (by decide +kernel : ∀ t : Fin grid0.N, _)

/-- Every block of the result is some point's. -/
theorem idx_onto : ∀ (q0 : Fin 16) (q1 q2 : Fin 2), ∃ t : Fin cfg0.N, win0_2.index t = ![q0.val, q1.val, q2.val] :=
  (by decide +kernel : ∀ (q0 : Fin 16) (q1 q2 : Fin 2), ∃ t : Fin grid0.N, win0_2.index t = ![q0.val, q1.val, q2.val])

/-- WHAT POINT `t` WRITES BACK is block `t` of `regionFun` of the two window arrays as the region finds them. -/
theorem flushed_eq (c : Dev nD) (t : Fin cfg0.N) :
    (dats m 0 c).flushed 2 t
      = ((cfg0.win 2).blk t).view.read (Elt Ideal) (regionFun (V m c main_v1) (V m c main_v3)) := by
  show (cfg0.win 2).cut (grid0.coords t) ((dats m 0 c).after 2 t) = _
  rw [after0_2]
  obtain ⟨e0, e1, e2, e3, e4, e5, b0, b1, b2⟩ := idx_facts t
  funext j
  refine (congrFun (out_eq (iblk m c 0 t) (iblk m c 1 t)) j).trans ?_
  refine congrArg (fun u : EReal => Ideal.ofBits .f32 0xBE000000#32 * u) (Finset.sum_congr rfl fun d _ => ?_)
  refine congrArg₂ (fun u v : EReal => FloatOps.absf (F := Ideal) (φ := .f32) (u - v)) ?_ ?_
  · show V m c main_v1 (((cfg0.win 0).blk t).view.emb (ix3 (0 : Fin 1) (j 1) d)) = _
    refine congrArg (V m c main_v1) (funext fun a => Fin.ext ?_)
    match a with
    | ⟨0, _⟩ => show win0_0.index t (0 : Fin 3) * 1 + 1 * 0 = win0_2.index t (0 : Fin 3) * 1 + 1 * (j 0).val; have hj : (j 0).val < 1 := (j 0).isLt; omega
    | ⟨1, _⟩ => show win0_0.index t (1 : Fin 3) * 256 + 1 * (j 1).val = win0_2.index t (1 : Fin 3) * 256 + 1 * (j 1).val; omega
    | ⟨2, _⟩ => show win0_0.index t (2 : Fin 3) * 64 + 1 * d.val = d.val; omega
  · show V m c main_v3 (((cfg0.win 1).blk t).view.emb (ix3 (0 : Fin 1) d (j 2))) = _
    refine congrArg (V m c main_v3) (funext fun a => Fin.ext ?_)
    match a with
    | ⟨0, _⟩ => show win0_1.index t (0 : Fin 3) * 1 + 1 * 0 = win0_2.index t (0 : Fin 3) * 1 + 1 * (j 0).val; have hj : (j 0).val < 1 := (j 0).isLt; omega
    | ⟨1, _⟩ => show win0_1.index t (1 : Fin 3) * 64 + 1 * d.val = d.val; omega
    | ⟨2, _⟩ => show win0_1.index t (2 : Fin 3) * 256 + 1 * (j 2).val = win0_2.index t (2 : Fin 3) * 256 + 1 * (j 2).val; omega

/-- An index of the result array is in point `t`'s block iff each coordinate is in the block's range on its axis. -/
theorem mem_blk (t : Fin cfg0.N) (i : S16x512x512.Idx) :
    i ∈ ((cfg0.win 2).blk t).view.set
      ↔ ∀ a : Fin 3, win0_2.index t a * S1x256x256.size a ≤ (i a).val
          ∧ (i a).val < win0_2.index t a * S1x256x256.size a + S1x256x256.size a := by
  show i ∈ ((View.whole main_v4).slice (win0_2.rect t)).set ↔ _
  rw [View.set_slice_whole, Rect.mem_set_unit]
  exact Iff.rfl

/-- The blocks cover the result array: `(g, s, t)` is in the block of the point whose block index is `(g, s/256, t/256)`. -/
theorem cover (i : S16x512x512.Idx) :
    ∃ t : Fin cfg0.N, (cfg0.win 2).flush t = true ∧ i ∈ ((cfg0.win 2).blk t).view.set := by
  have h0 : (i 0).val < 16 := (i 0).isLt
  have h1 : (i 1).val < 512 := (i 1).isLt
  have h2 : (i 2).val < 512 := (i 2).isLt
  obtain ⟨t, ht⟩ := idx_onto ⟨(i 0).val, h0⟩ ⟨(i 1).val / 256, by omega⟩ ⟨(i 2).val / 256, by omega⟩
  have q0 : win0_2.index t (0 : Fin 3) = (i 0).val := congrFun ht 0
  have q1 : win0_2.index t (1 : Fin 3) = (i 1).val / 256 := congrFun ht 1
  have q2 : win0_2.index t (2 : Fin 3) = (i 2).val / 256 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- THE RESULT ARRAY of the region after the run: `regionFun` of the two window arrays. -/
theorem final (c : Dev nD) :
    (dats m 0 c).arrAt 2 cfg0.N = regionFun (V m c main_v1) (V m c main_v3) :=
  (dats m 0 c).arrAt_eq_of_cover 2 (regionFun (V m c main_v1) (V m c main_v3)) (fun t _ => flushed_eq m c t) cover

end Cert.KernelArray

end
-- ==== Proof.LibSlabCast.lean ====
/-
  Reshapes that merge or split the two leading axes, read at an index written by its coordinates.

  `[a, b, n, k]` viewed as `[a·b, n, k]` reads slab `p·b + q` at `(p, q)`; the view back reads `(p, q)` at slab `p·b + q`;
  `[1, 1, n, k]` viewed as `[n, k]` reads `(s, u)` at `(0, 0, s, u)`.  In each case the two indices have the same row-major
  position.
-/
import Idealize.ShloMosaic.Lib.ValueIdx
import Idealize.ShloMosaic.Lib.Pipeline.Value

noncomputable section

namespace Cert.LibSlabCast

open Idealize.ShloMosaic Idealize.ShloMosaic.ValueIdx

/-- `[a, b, n, k]` viewed as `[ab, n, k]`: slab `g = p·b + q`, row `s`, column `d` is entry `(p, q, s, d)`. -/
theorem merge_ix {α : Type} {a b n k ab : Nat} (v : (⟨4, ![a, b, n, k]⟩ : Shape).Idx → α)
    (h : (⟨4, ![a, b, n, k]⟩ : Shape).ShapeCasts ⟨3, ![ab, n, k]⟩)
    (p : Fin a) (q : Fin b) (g : Fin ab) (hg : g.val = p.val * b + q.val) (s : Fin n) (d : Fin k) :
    shapeCast ⟨3, ![ab, n, k]⟩ v h (ix3 g s d) = v (ix4 p q s d) :=
  shapeCast_apply v h _ _ (by
    rw [Shape.rowMajor_val_four, Shape.rowMajor_val_three]
    show ((p.val * b + q.val) * n + s.val) * k + d.val = (g.val * n + s.val) * k + d.val
    rw [hg])

/-- `[ab, n, k]` viewed as `[a, b, n, k]`: entry `(p, q, s, d)` is slab `g = p·b + q`, row `s`, column `d`. -/
theorem split_ix {α : Type} {a b n k ab : Nat} (v : (⟨3, ![ab, n, k]⟩ : Shape).Idx → α)
    (h : (⟨3, ![ab, n, k]⟩ : Shape).ShapeCasts ⟨4, ![a, b, n, k]⟩)
    (p : Fin a) (q : Fin b) (g : Fin ab) (hg : g.val = p.val * b + q.val) (s : Fin n) (d : Fin k) :
    shapeCast ⟨4, ![a, b, n, k]⟩ v h (ix4 p q s d) = v (ix3 g s d) :=
  shapeCast_apply v h _ _ (by
    rw [Shape.rowMajor_val_three, Shape.rowMajor_val_four]
    show (g.val * n + s.val) * k + d.val = ((p.val * b + q.val) * n + s.val) * k + d.val
    rw [hg])

/-- `[1, 1, n, k]` viewed as `[n, k]`: entry `(s, u)` is entry `(0, 0, s, u)`. -/
theorem dropTwo_ix {α : Type} {n k : Nat} (v : (⟨4, ![1, 1, n, k]⟩ : Shape).Idx → α)
    (h : (⟨4, ![1, 1, n, k]⟩ : Shape).ShapeCasts ⟨2, ![n, k]⟩) (s : Fin n) (u : Fin k) :
    shapeCast ⟨2, ![n, k]⟩ v h (ix2 s u) = v (ix4 (0 : Fin 1) (0 : Fin 1) s u) :=
  shapeCast_apply v h _ _ (by
    rw [Shape.rowMajor_val_four, Shape.rowMajor_val_two]
    show ((0 * 1 + 0) * n + s.val) * k + u.val = s.val * k + u.val
    simp)

end Cert.LibSlabCast

end
-- ==== Proof.KernelScore.lean ====
/-
  The kernel program's result, read at an index: it is the score array `G` of the two arguments.

  Around the region the program only moves data.  Before it, the query argument `q : [2, 512, 8, 64]` is transposed to
  `(batch, head, position, feature)` and its two leading axes merged — slab `g = 8 b + h` — giving the region's
  `A0(g, s, d) = q(b, s, h, d)`; the key argument is transposed to `(batch, head, feature, position)` and merged likewise,
  `A1(g, d, t) = k(b, t, h, d)`.  After it, the region's result `[16, 512, 512]` is split back to `(batch, head, s, t)` and
  transposed to `(batch, s, t, head)`.  With the region's result `−1/8 · ∑_d |A0(g, s, d) − A1(g, d, t)|` this gives, at
  `(b, s, t, h)`, exactly `G q k`: `result_eq`.  `run` restates the generated frame run with the result array so named and
  the arguments unchanged.
-/
import proofs.«160838_j41214506173057_2_alg».proof.Proof.Gen.KernelIdeal.Frame
import proofs.«160838_j41214506173057_2_alg».proof.Proof.KernelArray
import proofs.«160838_j41214506173057_2_alg».proof.Proof.L1Spec
import proofs.«160838_j41214506173057_2_alg».proof.Proof.LibSlabCast
import Idealize.ShloMosaic.Lib.Pipeline.Value
import Idealize.ShloMosaic.Lib.ValueIdx
import Idealize.ShloMosaic.Lib.StableHlo.Run

noncomputable section

namespace Cert.KernelScore

open Cert.KernelIdeal Cert.KernelIdeal.Gen Cert.KernelArray Cert.L1Spec
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## The two window arrays as the region finds them -/

/-- The query window's array: the query argument transposed, its batch and head axes merged. -/
theorem V_queries (c : Dev nD) : (V m c main_v1 : S16x512x64.Idx → EReal)
    = shapeCast S16x512x64 (transpose S2x8x512x64 [0, 2, 1, 3] (m ((c : Thread nD τ).loc main_arg0)) transposes_S2x512x8x64_S2x8x512x64_0_2_1_3) shapeCasts_S2x8x512x64_S16x512x64 := by
  show StableHlo.after hostOps0 (fun b => m (c, b)) (Proc.devRef .tc main_v1) = _
  after_results
  rfl

/-- The key window's array: the key argument transposed to features-by-positions, its batch and head axes merged. -/
theorem V_keys (c : Dev nD) : (V m c main_v3 : S16x64x512.Idx → EReal)
    = shapeCast S16x64x512 (transpose S2x8x64x512 [0, 2, 3, 1] (m ((c : Thread nD τ).loc main_arg1)) transposes_S2x512x8x64_S2x8x64x512_0_2_3_1) shapeCasts_S2x8x64x512_S16x64x512 := by
  show StableHlo.after hostOps0 (fun b => m (c, b)) (Proc.devRef .tc main_v3) = _
  after_results
  rfl

/-- Slab `8 b + h`, row `s`, feature `d` of the query window's array is `q(b, s, h, d)`. -/
theorem queries_apply (x : S2x512x8x64.Idx → EReal) (b : Fin 2) (h : Fin 8) (g : Fin 16) (hg : g.val = b.val * 8 + h.val)
    (s : Fin 512) (d : Fin 64) :
    shapeCast S16x512x64 (transpose S2x8x512x64 [0, 2, 1, 3] x transposes_S2x512x8x64_S2x8x512x64_0_2_1_3) shapeCasts_S2x8x512x64_S16x512x64 (ix3 g s d)
      = x (ix4 b s h d) := by
  refine (Cert.LibSlabCast.merge_ix _ shapeCasts_S2x8x512x64_S16x512x64 b h g hg s d).trans ?_
  refine transpose_apply _ x transposes_S2x512x8x64_S2x8x512x64_0_2_1_3 (ix4 b h s d) (ix4 b s h d) fun a => ?_
  match a with
  | ⟨0, _⟩ => rfl
  | ⟨1, _⟩ => rfl
  | ⟨2, _⟩ => rfl
  | ⟨3, _⟩ => rfl

/-- Slab `8 b + h`, feature `d`, column `t` of the key window's array is `k(b, t, h, d)`. -/
theorem keys_apply (x : S2x512x8x64.Idx → EReal) (b : Fin 2) (h : Fin 8) (g : Fin 16) (hg : g.val = b.val * 8 + h.val)
    (d : Fin 64) (t : Fin 512) :
    shapeCast S16x64x512 (transpose S2x8x64x512 [0, 2, 3, 1] x transposes_S2x512x8x64_S2x8x64x512_0_2_3_1) shapeCasts_S2x8x64x512_S16x64x512 (ix3 g d t)
      = x (ix4 b t h d) := by
  refine (Cert.LibSlabCast.merge_ix _ shapeCasts_S2x8x64x512_S16x64x512 b h g hg d t).trans ?_
  refine transpose_apply _ x transposes_S2x512x8x64_S2x8x64x512_0_2_3_1 (ix4 b h d t) (ix4 b t h d) fun a => ?_
  match a with
  | ⟨0, _⟩ => rfl
  | ⟨1, _⟩ => rfl
  | ⟨2, _⟩ => rfl
  | ⟨3, _⟩ => rfl

/-! ## The program's result after the host operations that follow the region -/

/-- The result buffer is the region's result array split back into batch and head and transposed to put the head last. -/
theorem tail_eq (c : Dev nD) :
    (Pipeline.afterTail₀ cfgs (dats m) 0 (V0 m) [hostOps1] c main_v6 : S2x512x512x8.Idx → EReal)
      = transpose S2x512x512x8 [0, 2, 3, 1] (shapeCast S2x8x512x512 ((dats m 0 c).arrAt 2 cfg0.N) shapeCasts_S16x512x512_S2x8x512x512) transposes_S2x8x512x512_S2x512x512x8_0_2_3_1 := by
  unfold Pipeline.afterTail₀
  show StableHlo.after hostOps1 _ (Proc.devRef .tc main_v6) = _
  after_results
  refine congrArg (fun v : S2x8x512x512.Idx → EReal => transpose S2x512x512x8 [0, 2, 3, 1] v transposes_S2x8x512x512_S2x512x512x8_0_2_3_1) ?_
  refine congrArg (fun A : S16x512x512.Idx → EReal => shapeCast S2x8x512x512 A shapeCasts_S16x512x512_S2x8x512x512) ?_
  exact Pipeline.withArrays_arr spec0 launch0.win.arr_inj c _ _ 2

/-- The split-and-transposed array at `(b, s, t, h)` is the region's array at slab `8 b + h`, row `s`, column `t`. -/
theorem tail_apply (A : S16x512x512.Idx → EReal) (b : Fin 2) (s t : Fin 512) (h : Fin 8) (g : Fin 16) (hg : g.val = b.val * 8 + h.val) :
    transpose S2x512x512x8 [0, 2, 3, 1] (shapeCast S2x8x512x512 A shapeCasts_S16x512x512_S2x8x512x512) transposes_S2x8x512x512_S2x512x512x8_0_2_3_1 (ix4 b s t h)
      = A (ix3 g s t) := by
  refine (transpose_apply _ _ transposes_S2x8x512x512_S2x512x512x8_0_2_3_1 (ix4 b s t h) (ix4 b h s t) fun a => ?_).trans
    (Cert.LibSlabCast.split_ix A shapeCasts_S16x512x512_S2x8x512x512 b h g hg s t)
  match a with
  | ⟨0, _⟩ => rfl
  | ⟨1, _⟩ => rfl
  | ⟨2, _⟩ => rfl
  | ⟨3, _⟩ => rfl

/-- THE KERNEL PROGRAM'S RESULT is the score array of its two arguments. -/
theorem result_eq (c : Dev nD) :
    (Pipeline.afterTail₀ cfgs (dats m) 0 (V0 m) [hostOps1] c main_v6 : S2x512x512x8.Idx → EReal)
      = G (m ((c : Thread nD τ).loc main_arg0)) (m ((c : Thread nD τ).loc main_arg1)) := by
  rw [tail_eq, final, V_queries, V_keys]
  funext i
  obtain ⟨b, s, t, h, rfl⟩ : ∃ (b : Fin 2) (s t : Fin 512) (h : Fin 8), i = ix4 b s t h := ⟨i 0, i 1, i 2, i 3, eq_ix4 i⟩
  have hgl : b.val * 8 + h.val < 16 := by have := b.isLt; have := h.isLt; omega
  refine (tail_apply _ b s t h ⟨b.val * 8 + h.val, hgl⟩ rfl).trans ?_
  rw [G_ix]
  refine congrArg (fun u : EReal => Ideal.ofBits .f32 0xBE000000#32 * u) (Finset.sum_congr rfl fun d _ => ?_)
  refine congrArg₂ (fun u v : EReal => FloatOps.absf (F := Ideal) (φ := .f32) (u - v)) ?_ ?_
  · exact queries_apply _ b h ⟨b.val * 8 + h.val, hgl⟩ rfl s d
  · exact keys_apply _ b h ⟨b.val * 8 + h.val, hgl⟩ rfl d t

/-! ## The run, read -/

/-- Every weakly fair execution of the kernel program terminates with its result array at `G` of the arguments and the
    arguments unchanged: the generated frame run, its post read through `result_eq`. -/
theorem run : θ_run defs (onTc (τ := τ) (main (F := Ideal))) ⟨m, fun _ => 0, ρ⟩ fun r => ∀ c : Dev nD,
      r.2.mem ((c.tc : Thread nD τ).loc main_v6) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelScore

end
-- ==== Proof.lean ====
/-
  An L1 ("Manhattan") attention score, kernel against reference, on the extended reals.

  Both programs take a query array `q` and a key array `k` of shape `(batch 2, position 512, head 8, feature 64)` and
  return the array of shape `(batch, query position, key position, head)` whose entry at `(b, s, t, h)` is
      `−(1/8) · ∑_d |q(b, s, h, d) − k(b, t, h, d)|`                                  (`Cert.L1Spec.G`).

  The kernel program moves the head axis forward and merges it with the batch axis, hands the region a query array
  `[16, 512, 64]` and a transposed key array `[16, 64, 512]`, computes `256 × 256` output blocks in four chunks of 64 query
  rows each (absolute differences summed over the feature axis, times the binary32 word of `−1/8`), and undoes the layout
  afterwards.  Proof/KernelChunk.lean reads one chunk at an index, Proof/KernelBlock.lean the output block,
  Proof/KernelArray.lean the region's whole result, Proof/KernelScore.lean the program's result: it is `G q k`.

  The reference program works one head at a time — slice, broadcast queries against keys, absolute differences summed
  over the features from `0`, negated, times `1 / √64` — and stacks the eight heads along the last axis.
  Proof/RefScore.lean reads it at an index and meets the kernel's form through one scalar law (Proof/L1Spec.lean): for
  every extended real `s`, `(−(0 + s)) · (1 / √64) = (−1/8) · s`, because `√64 = 8` exactly and a sign moves across a product
  on the extended reals.  The sums on the two sides are over the same 64 terms, so nothing else is needed, and in
  particular the finiteness of the inputs is never used.

  The three frames are the generated ones (the reference's is its generated run with the result dropped), and the
  idealized kernel is the kernel's own text read on the extended reals, so there is nothing to preserve.
-/
import proofs.«160838_j41214506173057_2_alg».proof.Defs
import proofs.«160838_j41214506173057_2_alg».proof.Proof.Gen.Kernel
import proofs.«160838_j41214506173057_2_alg».proof.Proof.Gen.Kernel.Skeleton
import proofs.«160838_j41214506173057_2_alg».proof.Proof.Gen.Kernel.Launch
import proofs.«160838_j41214506173057_2_alg».proof.Proof.Gen.Kernel.Points
import proofs.«160838_j41214506173057_2_alg».proof.Proof.Gen.Kernel.Frame
import proofs.«160838_j41214506173057_2_alg».proof.Proof.Gen.KernelIdeal
import proofs.«160838_j41214506173057_2_alg».proof.Proof.Gen.KernelIdeal.Skeleton
import proofs.«160838_j41214506173057_2_alg».proof.Proof.Gen.KernelIdeal.Launch
import proofs.«160838_j41214506173057_2_alg».proof.Proof.Gen.KernelIdeal.Points
import proofs.«160838_j41214506173057_2_alg».proof.Proof.Gen.KernelIdeal.Frame
import proofs.«160838_j41214506173057_2_alg».proof.Proof.Gen.ReferenceIdeal
import proofs.«160838_j41214506173057_2_alg».proof.Proof.Gen.ReferenceIdeal.Run
import proofs.«160838_j41214506173057_2_alg».proof.Proof.Gen.Pre_finite_inputs
import proofs.«160838_j41214506173057_2_alg».proof.Proof.L1Spec
import proofs.«160838_j41214506173057_2_alg».proof.Proof.RefScore
import proofs.«160838_j41214506173057_2_alg».proof.Proof.KernelScore
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on `q` and `k`, both programs end with the score array `G q k`. -/
theorem algebraic : Cert.algebraic_KernelIdeal_ReferenceIdeal := by
  intro m ρ m' ρ' _ hagree
  refine ⟨fun c => Cert.L1Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelScore.run m ρ, ?_⟩
  refine (θ_run Cert.ReferenceIdeal.defs _ _).mono (fun _ h c => ⟨(h c).1.trans ?_, (h c).2⟩)
    (Cert.ReferenceIdeal.Value.run (F := Ideal) m' ρ')
  rw [Cert.RefScore.res_eq, Cert.RefScore.stacked_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
